-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S8 : Shape := ⟨1, ![8]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel

variable [Facts]

def fn {F : FTy → Type} [FloatOps F] (main_arg0 : FVec F S32768x1024 .f32) (main_arg1 : FVec F S32768x1024 .f32) (main_arg2 : FVec F S32768x1024 .f32) (main_arg3 : IVec S8 32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S32768x1024 .f32 := Host.absf main_arg1
  let main_cst_0 : FVec F S_ .f32 := constant S_ .f32 0x7F800000#32
  let main_v5 : FVec F S32768x1024 .f32 := broadcastInDim S32768x1024 ![] bcast_S_S32768x1024 main_cst_0
  let main_v6 : IVec S32768x1024 1 := cmpf .olt main_v4 main_v5
  let main_c_1 : IVec S_ 1 := constantI S_ 1 1#1
  let main_v7 : IVec S_ 1 := (fun x v => Host.reduce IntOp.andi x v reducesTo_S32768x1024_S_d0_1 h_S_) main_v6 main_c_1
  let main_v8 : IVec S_ 1 := andi main_v3 main_v7
  let main_v9 : FVec F S32768x1024 .f32 := Host.absf main_arg2
  let main_cst_2 : FVec F S_ .f32 := constant S_ .f32 0x7F800000#32
  let main_v10 : FVec F S32768x1024 .f32 := broadcastInDim S32768x1024 ![] bcast_S_S32768x1024 main_cst_2
  let main_v11 : IVec S32768x1024 1 := cmpf .olt main_v9 main_v10
  let main_c_3 : IVec S_ 1 := constantI S_ 1 1#1
  let main_v12 : IVec S_ 1 := (fun x v => Host.reduce IntOp.andi x v reducesTo_S32768x1024_S_d0_1 h_S_) main_v11 main_c_3
  let main_v13 : IVec S_ 1 := andi main_v8 main_v12
  main_v13
-- ==== Kernel.lean ====
abbrev S32768x1024 : Shape := ⟨2, ![32768, 1024]⟩
abbrev S8 : Shape := ⟨1, ![8]⟩
abbrev S8x4096x1024 : Shape := ⟨3, ![8, 4096, 1024]⟩
abbrev S1x2048x1024 : Shape := ⟨3, ![1, 2048, 1024]⟩
abbrev S1x512x1024 : Shape := ⟨3, ![1, 512, 1024]⟩
abbrev S2048x1024 : Shape := ⟨2, ![2048, 1024]⟩
abbrev S512x1024 : Shape := ⟨2, ![512, 1024]⟩
abbrev S2048x512 : Shape := ⟨2, ![2048, 512]⟩

abbrev nBuf : Space → Nat
  | .hbm => 9
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x1024, .f32⟩
  | .hbm, ⟨3, _⟩ => ⟨S8, .i32⟩
  | .hbm, ⟨4, _⟩ => ⟨S8x4096x1024, .f32⟩
  | .hbm, ⟨5, _⟩ => ⟨S8x4096x1024, .f32⟩
  | .hbm, ⟨6, _⟩ => ⟨S8x4096x1024, .f32⟩
  | .hbm, ⟨7, _⟩ => ⟨S8x4096x1024, .f32⟩
  | .hbm, ⟨8, _⟩ => ⟨S32768x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x2048x1024, .f32⟩
  | .local _ .vmem, ⟨7, _⟩ => ⟨S1x2048x1024, .f32⟩
  | .local _ .vmem, ⟨8, _⟩ => ⟨S2048x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 8], ![false, false, false]⟩

def k0_cond2 (i : grid0.Coords) : BitVec 1 :=
  let arg2 : BitVec 32 := BitVec.ofNat 32 (i 2).val
  let c7_i32 : BitVec 32 := 7#32
  let v22 : BitVec 1 := Scalar.cmpi .eq arg2 c7_i32
  let v23 : BitVec 32 := Scalar.extui v22
  let c0_i32_15 : BitVec 32 := 0#32
  let v24 : BitVec 1 := Scalar.cmpi .ne v23 c0_i32_15
  v24

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S32768x1024_S8x4096x1024 : S32768x1024.ShapeCasts S8x4096x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  bitsLt_bf16_f32 : FTy.bits .bf16 < FTy.bits .f32
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S2048x1024_S1x2048x1024 : S2048x1024.ShapeCasts S1x2048x1024
  shapeCasts_S8x4096x1024_S32768x1024 : S8x4096x1024.ShapeCasts S32768x1024
  dot_S2048x1024_S512x1024_S2048x512_1_1_0_0_n_n_wf : DotDims.WF S2048x1024 S512x1024 S2048x512 [1] [1] [0] [0] [] []
  dot_S2048x512_S512x1024_S2048x1024_1_0_0_1_n_n_wf : DotDims.WF S2048x512 S512x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S8x4096x1024.size a
  hwx0_0 : ∀ i : grid0.Coords, EltTy.bits .f32 = 32 ∨ (Rect.block (s := S8x4096x1024) S1x2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S8x4096x1024.size a
  hwx0_1 : ∀ i : grid0.Coords, EltTy.bits .f32 = 32 ∨ (Rect.block (s := S8x4096x1024) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S8x4096x1024.size a
  hwx0_2 : ∀ i : grid0.Coords, EltTy.bits .f32 = 32 ∨ (Rect.block (s := S8x4096x1024) S1x512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x1024.size a ≤ S8x4096x1024.size a
  hwx0_3 : ∀ i : grid0.Coords, EltTy.bits .f32 = 32 ∨ (Rect.block (s := S8x4096x1024) S1x2048x1024.size (cc0_transform_3 i) (hinb0_3 i)).WholeWords (EltTy.packing .f32)

variable [Facts₀]

def dot_S2048x1024_S512x1024_S2048x512_1_1_0_0_n_n : DotDims S2048x1024 S512x1024 S2048x512 where
  lhsContracting := [1]
  rhsContracting := [1]
  lhsNonContracting := [0]
  rhsNonContracting := [0]
  lhsBatch := []
  rhsBatch := []
  wf := dot_S2048x1024_S512x1024_S2048x512_1_1_0_0_n_n_wf
def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf

abbrev win0_0 : Pipeline.Window sig grid0 :=
  Pipeline.Window.ofSpec (Memref.whole main_v0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S32768x1024 : Shape := ⟨2, ![32768, 1024]⟩
abbrev S8 : Shape := ⟨1, ![8]⟩
abbrev S8x4096x1024 : Shape := ⟨3, ![8, 4096, 1024]⟩
abbrev S8x4096x4096 : Shape := ⟨3, ![8, 4096, 4096]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x1024, .f32⟩
  | .hbm, ⟨3, _⟩ => ⟨S8, .i32⟩
  | .hbm, ⟨4, _⟩ => ⟨S8x4096x1024, .f32⟩
  | .hbm, ⟨5, _⟩ => ⟨S8x4096x1024, .f32⟩
  | .hbm, ⟨6, _⟩ => ⟨S8x4096x1024, .f32⟩
  | .hbm, ⟨7, _⟩ => ⟨S8x4096x4096, .f32⟩
  | .hbm, ⟨8, _⟩ => ⟨S_, .f32⟩
  | .hbm, ⟨9, _⟩ => ⟨S8x4096x4096, .f32⟩
  | .hbm, ⟨10, _⟩ => ⟨S8x4096x4096, .f32⟩
  | .hbm, ⟨11, _⟩ => ⟨S8x4096x1024, .f32⟩
  | .hbm, ⟨12, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]

class Facts₀ : Prop where
  shapeCasts_S32768x1024_S8x4096x1024 : S32768x1024.ShapeCasts S8x4096x1024
  bcast_S_S8x4096x4096 : S_.BroadcastsInDim S8x4096x4096 (![] : Fin 0 → Fin S8x4096x4096.rank)
  shapeCasts_S8x4096x1024_S32768x1024 : S8x4096x1024.ShapeCasts S32768x1024
  dot_S8x4096x1024_S8x4096x1024_S8x4096x4096_2_2_1_1_0_0_wf : DotDims.WF S8x4096x1024 S8x4096x1024 S8x4096x4096 [2] [2] [1] [1] [0] [0]
  dot_S8x4096x4096_S8x4096x1024_S8x4096x1024_2_1_1_2_0_0_wf : DotDims.WF S8x4096x4096 S8x4096x1024 S8x4096x1024 [2] [1] [1] [2] [0] [0]

variable [Facts₀]

def dot_S8x4096x1024_S8x4096x1024_S8x4096x4096_2_2_1_1_0_0 : DotDims S8x4096x1024 S8x4096x1024 S8x4096x4096 where
  lhsContracting := [2]
  rhsContracting := [2]
  lhsNonContracting := [1]
  rhsNonContracting := [1]
  lhsBatch := [0]
  rhsBatch := [0]
  wf := dot_S8x4096x1024_S8x4096x1024_S8x4096x4096_2_2_1_1_0_0_wf
def dot_S8x4096x4096_S8x4096x1024_S8x4096x1024_2_1_1_2_0_0 : DotDims S8x4096x4096 S8x4096x1024 S8x4096x1024 where
  lhsContracting := [2]
  rhsContracting := [1]
  lhsNonContracting := [1]
  rhsNonContracting := [2]
  lhsBatch := [0]
  rhsBatch := [0]
  wf := dot_S8x4096x4096_S8x4096x1024_S8x4096x1024_2_1_1_2_0_0_wf

class Facts : Prop extends Facts₀ where

variable [Facts]
-- ==== Proof.Spec.lean ====
/-
  The function both programs compute, and the one law that joins their two arrangements of it.

  Eight experts; expert `e` owns tokens `g < 4096` (rows of `X e`), 4096 hidden units `f` (rows of `W1 e` and of `W2 e`),
  1024 features.  The hidden activation of token `g` at unit `f` is `max (∑ k, X e g k · W1 e f k) 0`, and the output
  at feature `h` is `∑ f, hidden e g f · W2 e f h`.

  One arrangement sums over all 4096 hidden units at once.  The other cuts them into 8 tiles of 512 and adds the
  tiles' partial sums one after the other.  On the extended reals addition is commutative and associative with no
  side condition, so the two agree at every argument, infinite ones included: the sum over `Fin 4096` is re-indexed
  through `Fin 8 × Fin 512` (unit `512·s + j` is row `j` of tile `s`).
-/
import Idealize.ShloMosaic.PureOps.Ideal
import Idealize.ShloMosaic.Lib.ValueIdx

noncomputable section

namespace Cert.GroupedMlp

open Idealize.ShloMosaic Idealize.ShloMosaic.ValueIdx

/-- The three arrays as the experts see them: expert, row, feature. -/
abbrev Arr3 : Shape := ⟨3, ![8, 4096, 1024]⟩
/-- A block of 2048 token rows of one expert. -/
abbrev TokBlk : Shape := ⟨3, ![1, 2048, 1024]⟩
/-- A block of 512 hidden-unit rows of one expert. -/
abbrev HidBlk : Shape := ⟨3, ![1, 512, 1024]⟩

variable (X W1 W2 : Arr3.Idx → EReal)

/-- The hidden activation of token `g` of expert `e` at hidden unit `f`: the rectified dot product of the token's
    features with the unit's first-layer weights. -/
def hidden (e : Fin 8) (g f : Fin 4096) : EReal :=
  max (∑ k : Fin 1024, X (ix3 e g k) * W1 (ix3 e f k)) 0

/-- The output of token `g` of expert `e` at feature `h`: the hidden activations against the second-layer weights. -/
def outAt (e : Fin 8) (g : Fin 4096) (h : Fin 1024) : EReal :=
  ∑ f : Fin 4096, hidden X W1 e g f * W2 (ix3 e f h)

/-- The whole result as an [8, 4096, 1024] array. -/
def result3 : Arr3.Idx → EReal := fun i => outAt X W1 W2 (i 0) (i 1) (i 2)

theorem result3_apply (e : Fin 8) (g : Fin 4096) (h : Fin 1024) :
    result3 X W1 W2 (ix3 e g h) = outAt X W1 W2 e g h := rfl

/-- Row `j` of hidden tile `s` is hidden unit `512·s + j`. -/
def tileRow (s : Fin 8) (j : Fin 512) : Fin 4096 := ⟨s.val * 512 + j.val, by omega⟩

/-- Tile `s`'s contribution to the output of token `g` at feature `h`. -/
def tileTerm (e : Fin 8) (g : Fin 4096) (h : Fin 1024) (s : Fin 8) : EReal :=
  ∑ j : Fin 512, hidden X W1 e g (tileRow s j) * W2 (ix3 e (tileRow s j) h)

/-- THE LAW: the sum over the 4096 hidden units is the sum, over the 8 tiles, of each tile's 512 terms. -/
theorem outAt_eq_sum_tiles (e : Fin 8) (g : Fin 4096) (h : Fin 1024) :
    outAt X W1 W2 e g h = ∑ s : Fin 8, tileTerm X W1 W2 e g h s := by
  unfold outAt tileTerm
  rw [← Equiv.sum_comp (finProdFinEquiv : Fin 8 × Fin 512 ≃ Fin 4096)
    (fun f => hidden X W1 e g f * W2 (ix3 e f h)), Fintype.sum_prod_type]
  refine Finset.sum_congr rfl fun s _ => Finset.sum_congr rfl fun j _ => ?_
  have hr : (finProdFinEquiv (s, j) : Fin 4096) = tileRow s j :=
    Fin.ext (by show j.val + 512 * s.val = s.val * 512 + j.val; omega)
  rw [hr]

/-- What one grid step adds for row `p` of its token block at feature `h`, from the step's three blocks: the 512 hidden
    units of the step's tile, each rectified and weighted. -/
def blockTile (b0 : TokBlk.Idx → EReal) (b1 b2 : HidBlk.Idx → EReal) (p : Fin 2048) (h : Fin 1024) : EReal :=
  ∑ j : Fin 512, max (∑ k : Fin 1024, b0 (ix3 0 p k) * b1 (ix3 0 j k)) 0 * b2 (ix3 0 j h)

/-- When the three blocks are the token rows `g₀ + p` of expert `e` and the hidden rows of tile `s`, the step adds
    tile `s`'s term. -/
theorem blockTile_eq_tileTerm (b0 : TokBlk.Idx → EReal) (b1 b2 : HidBlk.Idx → EReal) (e : Fin 8) (g : Fin 4096)
    (s : Fin 8) (p : Fin 2048) (h : Fin 1024)
    (h0 : ∀ k : Fin 1024, b0 (ix3 0 p k) = X (ix3 e g k))
    (h1 : ∀ (j : Fin 512) (k : Fin 1024), b1 (ix3 0 j k) = W1 (ix3 e (tileRow s j) k))
    (h2 : ∀ j : Fin 512, b2 (ix3 0 j h) = W2 (ix3 e (tileRow s j) h)) :
    blockTile b0 b1 b2 p h = tileTerm X W1 W2 e g h s := by
  unfold blockTile tileTerm hidden
  refine Finset.sum_congr rfl fun j _ => ?_
  rw [h2 j]
  refine congrArg (fun z => max z 0 * W2 (ix3 e (tileRow s j) h)) ?_
  exact Finset.sum_congr rfl fun k _ => by rw [h0 k, h1 j k]

end Cert.GroupedMlp

end
-- ==== Proof.Payload.lean ====
/-
  The kernel body's arithmetic, read at one index on the extended reals.

  One grid step loads a block of 2048 token rows and two blocks of 512 hidden-unit rows (first- and second-layer
  weights of the step's tile), and stores into the accumulator, at row `p` and feature `h`,

      acc p h + ∑ j < 512, max (∑ k < 1024, tok p k · w1 j k) 0 · w2 j h .

  The format changes on the way into the two matrix products are the identity here, the first product contracts the
  last axis of both operands, the second contracts the tile axis, and both accumulate into a zero block.  The reset
  stores the zero block, and the final store only re-adds the leading unit axis.
-/
import proofs.«157871_j40553081209075_2_alg».proof.Proof.Gen.KernelIdeal.Skeleton
import proofs.«157871_j40553081209075_2_alg».proof.Proof.Spec
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx Cert.GroupedMlp

/-! ## The layout steps -/

/-- A [1, 2048, 1024] block viewed as [2048, 1024]: row `p`, feature `k` is entry (0, p, k). -/
theorem dropUnit_tok {α : Type} (v : S1x2048x1024.Idx → α) (hc : S1x2048x1024.ShapeCasts S2048x1024) (p : Fin 2048)
    (k : Fin 1024) : shapeCast S2048x1024 v hc (ix2 p k) = v (ix3 0 p k) := by
  refine (shapeCast_dropUnit_apply ![2048, 1024] v hc (ix2 p k)).trans (congrArg v ?_)
  funext a
  match a with
  | ⟨0, _⟩ => rfl
  | ⟨1, _⟩ => rfl
  | ⟨2, _⟩ => rfl

/-- A [1, 512, 1024] block viewed as [512, 1024]: row `j`, feature `k` is entry (0, j, k). -/
theorem dropUnit_hid {α : Type} (v : S1x512x1024.Idx → α) (hc : S1x512x1024.ShapeCasts S512x1024) (j : Fin 512)
    (k : Fin 1024) : shapeCast S512x1024 v hc (ix2 j k) = v (ix3 0 j k) := by
  refine (shapeCast_dropUnit_apply ![512, 1024] v hc (ix2 j k)).trans (congrArg v ?_)
  funext a
  match a with
  | ⟨0, _⟩ => rfl
  | ⟨1, _⟩ => rfl
  | ⟨2, _⟩ => rfl

/-- A [2048, 1024] value stored as a [1, 2048, 1024] block: entry (0, p, h) is row `p`, feature `h`. -/
theorem addUnit_tok {α : Type} (v : S2048x1024.Idx → α) (hc : S2048x1024.ShapeCasts S1x2048x1024) (z : Fin 1)
    (p : Fin 2048) (h : Fin 1024) : shapeCast S1x2048x1024 v hc (ix3 z p h) = v (ix2 p h) := by
  refine (shapeCast_addUnit_apply ![2048, 1024] v hc (ix3 z p h)).trans (congrArg v ?_)
  funext a
  match a with
  | ⟨0, _⟩ => rfl
  | ⟨1, _⟩ => rfl

/-! ## The two matrix products -/

/-- The first product's dimension numbers: both operands contract their feature axis. -/
abbrev D1 : DotDims S2048x1024 S512x1024 S2048x512 := dot_S2048x1024_S512x1024_S2048x512_1_1_0_0_n_n
/-- The second product's: the activations' tile axis against the weight block's row axis. -/
abbrev D2 : DotDims S2048x512 S512x1024 S2048x1024 := dot_S2048x512_S512x1024_S2048x1024_1_0_0_1_n_n

theorem D1_lhs_0 (i : S2048x512.Idx) (q : D1.contr.Idx) : (D1.lhsIdx i q 0).val = (i 0).val := by
  unfold DotDims.lhsIdx
  rw [dif_neg (show ¬(0 : Fin S2048x1024.rank) ∈ D1.lhsBatch by decide),
    dif_pos (show (0 : Fin S2048x1024.rank) ∈ D1.lhsNonContracting by decide)]
  rfl
theorem D1_lhs_1 (i : S2048x512.Idx) (q : D1.contr.Idx) : (D1.lhsIdx i q 1).val = (q ⟨0, by decide⟩).val :=
  D1.lhsIdx_val_of_single rfl i q
theorem D1_rhs_0 (i : S2048x512.Idx) (q : D1.contr.Idx) : (D1.rhsIdx i q 0).val = (i 1).val := by
  unfold DotDims.rhsIdx
  rw [dif_neg (show ¬(0 : Fin S512x1024.rank) ∈ D1.rhsBatch by decide),
    dif_pos (show (0 : Fin S512x1024.rank) ∈ D1.rhsNonContracting by decide)]
  rfl
theorem D1_rhs_1 (i : S2048x512.Idx) (q : D1.contr.Idx) : (D1.rhsIdx i q 1).val = (q ⟨0, by decide⟩).val :=
  D1.rhsIdx_val_of_single rfl i q

theorem D2_lhs_0 (i : S2048x1024.Idx) (q : D2.contr.Idx) : (D2.lhsIdx i q 0).val = (i 0).val := by
  unfold DotDims.lhsIdx
  rw [dif_neg (show ¬(0 : Fin S2048x512.rank) ∈ D2.lhsBatch by decide),
    dif_pos (show (0 : Fin S2048x512.rank) ∈ D2.lhsNonContracting by decide)]
  rfl
theorem D2_lhs_1 (i : S2048x1024.Idx) (q : D2.contr.Idx) : (D2.lhsIdx i q 1).val = (q ⟨0, by decide⟩).val :=
  D2.lhsIdx_val_of_single rfl i q
theorem D2_rhs_0 (i : S2048x1024.Idx) (q : D2.contr.Idx) : (D2.rhsIdx i q 0).val = (q ⟨0, by decide⟩).val :=
  D2.rhsIdx_val_of_single rfl i q
theorem D2_rhs_1 (i : S2048x1024.Idx) (q : D2.contr.Idx) : (D2.rhsIdx i q 1).val = (i 1).val := by
  unfold DotDims.rhsIdx
  rw [dif_neg (show ¬(1 : Fin S512x1024.rank) ∈ D2.rhsBatch by decide),
    dif_pos (show (1 : Fin S512x1024.rank) ∈ D2.rhsNonContracting by decide)]
  rfl

/-- The first product contracts the feature axis of both operands: entry (p, j) pairs token row `p` with hidden row `j`. -/
theorem matmul_tok_hid (a : FVec Ideal S2048x1024 .bf16) (b : FVec Ideal S512x1024 .bf16) (p : Fin 2048) (j : Fin 512) :
    matmul D1 none a b (constant S2048x512 .f32 0x00000000#32) (ix2 p j)
      = ∑ k : Fin 1024, a (ix2 p k) * b (ix2 j k) := by
  simp only [matmul]
  rw [Ideal.matmul_constant_zero_apply, ← Equiv.sum_comp (contrEquiv1 D1 1024 rfl rfl).symm]
  refine Finset.sum_congr rfl fun k _ => ?_
  have hk := contrEquiv1_symm_val D1 1024 rfl rfl k
  have el : D1.lhsIdx (ix2 p j) ((contrEquiv1 D1 1024 rfl rfl).symm k) = ix2 p k :=
    funext fun a => Fin.ext (by
      match a with
      | ⟨0, _⟩ => exact D1_lhs_0 _ _
      | ⟨1, _⟩ => exact (D1_lhs_1 _ _).trans hk)
  have er : D1.rhsIdx (ix2 p j) ((contrEquiv1 D1 1024 rfl rfl).symm k) = ix2 j k :=
    funext fun a => Fin.ext (by
      match a with
      | ⟨0, _⟩ => exact D1_rhs_0 _ _
      | ⟨1, _⟩ => exact (D1_rhs_1 _ _).trans hk)
  rw [el, er]

/-- The second product contracts the tile axis: entry (p, h) pairs the activations of row `p` with column `h` of the
    second-layer block. -/
theorem matmul_act_hid (a : FVec Ideal S2048x512 .bf16) (b : FVec Ideal S512x1024 .bf16) (p : Fin 2048) (h : Fin 1024) :
    matmul D2 none a b (constant S2048x1024 .f32 0x00000000#32) (ix2 p h)
      = ∑ j : Fin 512, a (ix2 p j) * b (ix2 j h) := by
  simp only [matmul]
  rw [Ideal.matmul_constant_zero_apply, ← Equiv.sum_comp (contrEquiv1 D2 512 rfl rfl).symm]
  refine Finset.sum_congr rfl fun j _ => ?_
  have hj := contrEquiv1_symm_val D2 512 rfl rfl j
  have el : D2.lhsIdx (ix2 p h) ((contrEquiv1 D2 512 rfl rfl).symm j) = ix2 p j :=
    funext fun a => Fin.ext (by
      match a with
      | ⟨0, _⟩ => exact D2_lhs_0 _ _
      | ⟨1, _⟩ => exact (D2_lhs_1 _ _).trans hj)
  have er : D2.rhsIdx (ix2 p h) ((contrEquiv1 D2 512 rfl rfl).symm j) = ix2 j h :=
    funext fun a => Fin.ext (by
      match a with
      | ⟨0, _⟩ => exact (D2_rhs_0 _ _).trans hj
      | ⟨1, _⟩ => exact D2_rhs_1 _ _)
  rw [el, er]

/-! ## The three stored values -/

/-- The reset stores zero everywhere. -/
theorem reset_apply (i : S2048x1024.Idx) : k0_pay1 (F := Ideal) i = 0 := by
  unfold k0_pay1
  rw [shapeCast_self]
  exact Ideal.ofBits_zero_f32

/-- The rectified first product at (p, j), from the two loaded blocks. -/
theorem act_apply (b0 : Vec Ideal S1x2048x1024 .f32) (b1 : Vec Ideal S1x512x1024 .f32) (p : Fin 2048) (j : Fin 512) :
    (truncf .bf16 (maximumf
        (matmul D1 none (truncf .bf16 (shapeCast S2048x1024 b0 shapeCasts_S1x2048x1024_S2048x1024) bitsLt_bf16_f32)
          (truncf .bf16 (shapeCast S512x1024 b1 shapeCasts_S1x512x1024_S512x1024) bitsLt_bf16_f32)
          (constant S2048x512 .f32 0x00000000#32))
        (broadcast S2048x512 (Scalar.ofBits (F := Ideal) .f32 0x00000000#32))) bitsLt_bf16_f32
      : FVec Ideal S2048x512 .bf16) (ix2 p j)
      = max (∑ k : Fin 1024, b0 (ix3 0 p k) * b1 (ix3 0 j k)) 0 := by
  rw [truncf_apply, maximumf_apply, matmul_tok_hid, broadcast_apply]
  refine congrArg₂ max (Finset.sum_congr rfl fun k _ => ?_) Ideal.ofBits_zero_f32
  rw [truncf_apply, truncf_apply, dropUnit_tok, dropUnit_hid]

/-- The accumulating store: what was there plus the step's tile term. -/
theorem step_apply (b0 : Vec Ideal S1x2048x1024 .f32) (b1 b2 : Vec Ideal S1x512x1024 .f32) (acc : Vec Ideal S2048x1024 .f32)
    (p : Fin 2048) (h : Fin 1024) :
    k0_pay2 (F := Ideal) b0 b1 b2 acc (ix2 p h) = acc (ix2 p h) + blockTile b0 b1 b2 p h := by
  unfold k0_pay2
  rw [shapeCast_self]
  refine (addf_apply _ _ _).trans (congrArg (acc (ix2 p h) + ·) ?_)
  refine (matmul_act_hid _ _ p h).trans ?_
  unfold blockTile
  refine Finset.sum_congr rfl fun j _ => ?_
  rw [act_apply, truncf_apply, dropUnit_hid]

/-- The write-back stores the accumulator under a leading unit axis. -/
theorem writeback_apply (acc : Vec Ideal S2048x1024 .f32) (z : Fin 1) (p : Fin 2048) (h : Fin 1024) :
    k0_pay3 (F := Ideal) acc (ix3 z p h) = acc (ix2 p h) := by
  unfold k0_pay3
  exact addUnit_tok acc _ z p h

end Cert.KernelIdeal.Body

end
-- ==== Proof.Pieces.lean ====
/-
  What one grid step leaves behind, case by case, as a value.

  The body keeps its running sum in a scratch block that survives from one grid step to the next.  At the first step of
  a token block's run (tile 0) it stores zero, reads it back and stores zero plus the step's term; at every later step it
  stores what it found plus the step's term; and at the last step (tile 7) it also copies the scratch block into the
  output block.  Each store covers its whole buffer, so what a buffer holds afterwards is the last stored value.
-/
import proofs.«157871_j40553081209075_2_alg».proof.Proof.Gen.KernelIdeal.Frame
import Idealize.ShloMosaic.Lib.Pipeline.Value
import Idealize.ShloMosaic.Lib.Tactic

noncomputable section

namespace Cert.KernelIdeal.Body

open Cert.KernelIdeal Cert.KernelIdeal.Gen Idealize.ShloMosaic Idealize.ShloMosaic.TcCoe Idealize.SL.Sem

variable {F : FTy → Type} [FloatOps F]
variable (c : Dev nD) (i : grid0.Coords)
  (a3 : Memref sig .tc .vmem S1x2048x1024 .f32) (h3 : a3.IsWhole)
  (a4 : Memref sig .tc .vmem S1x512x1024 .f32) (h4 : a4.IsWhole)
  (a5 : Memref sig .tc .vmem S1x512x1024 .f32) (h5 : a5.IsWhole)
  (a6 : Memref sig .tc .vmem S1x2048x1024 .f32) (h6 : a6.IsWhole)
  (a7 : Memref sig .tc .vmem S2048x1024 .f32) (h7 : a7.IsWhole)
  (x0 : Vec F S1x2048x1024 .f32) (x1 x2 : Vec F S1x512x1024 .f32)

/-- The zero offsets of a whole-block access, in either spelling. -/
theorem zeroOffsets2 : (![0, 0] : Fin 2 → Nat) = fun _ => 0 := funext fun a => by fin_cases a <;> rfl
theorem zeroOffsets3 : (![0, 0, 0] : Fin 3 → Nat) = fun _ => 0 := funext fun a => by fin_cases a <;> rfl

/-- A later step that is not the last (tiles 1 to 6): the scratch block holds what it held plus the step's term. -/
theorem scratch_B (hc0 : ¬cond0_0 i) (hc1 : ¬cond0_1 i) (xs0 : Vec F S2048x1024 .f32) :
    sout0_B_0 c i a3 h3 a4 h4 a5 h5 a6 h6 a7 h7 hc0 hc1 x0 x1 x2 xs0 = k0_pay2 x0 x1 x2 xs0 := by
  unfold sout0_B_0
  rw [View.read_writes_eq_canon _ _ _ (scover0_B_0 c i a3 h3 a4 h4 a5 h5 a6 h6 a7 h7 hc0 hc1 x0 x1 x2 xs0)]
  unfold kernelRun0_B
  dsimp only
  rw [View.canon_unit_zero zeroOffsets2]
  simp only [View.readAt_eq_ld, h3.read_unread, h4.read_unread, h5.read_unread, h7.read_unread,
    View.ld_unit_zero (S := S1x2048x1024) zeroOffsets3, View.ld_unit_zero (S := S1x512x1024) zeroOffsets3,
    View.ld_unit_zero (S := S2048x1024) zeroOffsets2]

/-- The last step (tile 7) leaves the same in the scratch block … -/
theorem scratch_C (hc0 : ¬cond0_0 i) (hc1 : cond0_1 i) (xs0 : Vec F S2048x1024 .f32) :
    sout0_C_0 c i a3 h3 a4 h4 a5 h5 a6 h6 a7 h7 hc0 hc1 x0 x1 x2 xs0 = k0_pay2 x0 x1 x2 xs0 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero zeroOffsets2]
  simp only [View.readAt_eq_ld, h3.read_unread, h4.read_unread, h5.read_unread, h7.read_unread,
    View.ld_unit_zero (S := S1x2048x1024) zeroOffsets3, View.ld_unit_zero (S := S1x512x1024) zeroOffsets3,
    View.ld_unit_zero (S := S2048x1024) zeroOffsets2]

/-- … and copies it, under a leading unit axis, into the output block. -/
theorem out_C (hc0 : ¬cond0_0 i) (hc1 : cond0_1 i) (xs0 : Vec F S2048x1024 .f32) :
    out0_C_3 c i a3 h3 a4 h4 a5 h5 a6 h6 a7 h7 hc0 hc1 x0 x1 x2 xs0 = k0_pay3 (k0_pay2 x0 x1 x2 xs0) := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero zeroOffsets3, View.readCov_unit_zero (S := S2048x1024) _ zeroOffsets2]
  simp only [View.readAt_eq_ld, h3.read_unread, h4.read_unread, h5.read_unread, h7.read_unread,
    View.ld_unit_zero (S := S1x2048x1024) zeroOffsets3, View.ld_unit_zero (S := S1x512x1024) zeroOffsets3,
    View.ld_unit_zero (S := S2048x1024) zeroOffsets2]

/-- The first step of a run (tile 0): the scratch block is reset to the zero block, read back, and left at zero plus the
    step's term. -/
theorem scratch_A (hc0 : cond0_0 i) (hc1 : ¬cond0_1 i) :
    sout0_A_0 c i a3 h3 a4 h4 a5 h5 a6 h6 a7 h7 hc0 hc1 x0 x1 x2 = k0_pay2 x0 x1 x2 (k0_pay1 (F := F)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S2048x1024) zeroOffsets2, View.readCov_unit_zero (S := S2048x1024) _ zeroOffsets2]
  simp only [View.readAt_eq_ld, h3.read_unread, h4.read_unread, h5.read_unread,
    View.ld_unit_zero (S := S1x2048x1024) zeroOffsets3, View.ld_unit_zero (S := S1x512x1024) zeroOffsets3]

end Cert.KernelIdeal.Body

end
-- ==== Proof.Blocks.lean ====
/-
  Which entries of the three arrays a grid step's blocks hold.

  The grid is 8 experts × 2 token blocks × 8 hidden tiles, walked with the tile index fastest: step `t` works on expert
  `t / 16`, token block `t / 8 % 2` and hidden tile `t % 8`.  Its token block is rows `2048·(t/8%2) + p` of the expert's
  tokens, its two weight blocks are rows `512·(t%8) + j` of the expert's first- and second-layer weights, and the output
  block it may write back is the token block's rows again.
-/
import proofs.«157871_j40553081209075_2_alg».proof.Proof.Gen.KernelIdeal.Frame
import proofs.«157871_j40553081209075_2_alg».proof.Proof.Spec
import Idealize.ShloMosaic.Lib.Pipeline.Value
import Idealize.ShloMosaic.Lib.StableHlo.Run

noncomputable section

namespace Cert.KernelIdeal.Body

open Cert.KernelIdeal Cert.KernelIdeal.Gen Idealize.ShloMosaic Idealize.ShloMosaic.TcCoe Idealize.SL.Sem
open Idealize.ShloMosaic.ValueIdx Cert.GroupedMlp

variable {F : FTy → Type} [FloatOps F]
variable (m : (ℓ : Loc nD τ sig) → Buf (Elt F) ℓ)

/-! ## Where each step's blocks sit -/

theorem tok_index : ∀ t : Fin cfg0.N,
    win0_0.index t 0 = t.val / 16 ∧ win0_0.index t 1 = t.val / 8 % 2 ∧ win0_0.index t 2 = 0 :=
  (by decide +kernel : ∀ t : Fin grid0.N,
    win0_0.index t 0 = t.val / 16 ∧ win0_0.index t 1 = t.val / 8 % 2 ∧ win0_0.index t 2 = 0)

theorem w1_index : ∀ t : Fin cfg0.N,
    win0_1.index t 0 = t.val / 16 ∧ win0_1.index t 1 = t.val % 8 ∧ win0_1.index t 2 = 0 :=
  (by decide +kernel : ∀ t : Fin grid0.N,
    win0_1.index t 0 = t.val / 16 ∧ win0_1.index t 1 = t.val % 8 ∧ win0_1.index t 2 = 0)

theorem w2_index : ∀ t : Fin cfg0.N,
    win0_2.index t 0 = t.val / 16 ∧ win0_2.index t 1 = t.val % 8 ∧ win0_2.index t 2 = 0 :=
  (by decide +kernel : ∀ t : Fin grid0.N,
    win0_2.index t 0 = t.val / 16 ∧ win0_2.index t 1 = t.val % 8 ∧ win0_2.index t 2 = 0)

theorem out_index : ∀ t : Fin cfg0.N,
    win0_3.index t 0 = t.val / 16 ∧ win0_3.index t 1 = t.val / 8 % 2 ∧ win0_3.index t 2 = 0 :=
  (by decide +kernel : ∀ t : Fin grid0.N,
    win0_3.index t 0 = t.val / 16 ∧ win0_3.index t 1 = t.val / 8 % 2 ∧ win0_3.index t 2 = 0)

/-! ## The blocks read at an index -/

/-- Row `p` of step `t`'s token block is token `2048·(t/8%2) + p` of expert `t/16`. -/
theorem tokBlock_apply (c : Dev nD) (t : Fin cfg0.N) (p : Fin 2048) (k : Fin 1024) (e : Fin 8) (g : Fin 4096)
    (he : e.val = t.val / 16) (hg : g.val = t.val / 8 % 2 * 2048 + p.val) :
    (iblk m c 0 t : Vec F S1x2048x1024 .f32) (ix3 0 p k) = (V m c main_v0 : S8x4096x1024.Idx → F .f32) (ix3 e g k) := by
  unfold iblk
  rw [View.read_apply]
  show (V m c main_v0 : S8x4096x1024.Idx → F .f32) (((cfg0.win 0).blk t).view.emb (ix3 0 p k)) = _
  refine congrArg (V m c main_v0 : S8x4096x1024.Idx → F .f32) ?_
  funext a
  apply Fin.ext
  have hi := tok_index t
  match a with
  | ⟨0, _⟩ => show win0_0.index t 0 * 1 + 1 * 0 = e.val; rw [hi.1]; omega
  | ⟨1, _⟩ => show win0_0.index t 1 * 2048 + 1 * p.val = g.val; rw [hi.2.1]; omega
  | ⟨2, _⟩ => show win0_0.index t 2 * 1024 + 1 * k.val = k.val; rw [hi.2.2]; omega

/-- Row `j` of step `t`'s first-layer block is hidden unit `512·(t%8) + j` of expert `t/16`. -/
theorem w1Block_apply (c : Dev nD) (t : Fin cfg0.N) (j : Fin 512) (k : Fin 1024) (e : Fin 8) (f : Fin 4096)
    (he : e.val = t.val / 16) (hf : f.val = t.val % 8 * 512 + j.val) :
    (iblk m c 1 t : Vec F S1x512x1024 .f32) (ix3 0 j k) = (V m c main_v1 : S8x4096x1024.Idx → F .f32) (ix3 e f k) := by
  unfold iblk
  rw [View.read_apply]
  show (V m c main_v1 : S8x4096x1024.Idx → F .f32) (((cfg0.win 1).blk t).view.emb (ix3 0 j k)) = _
  refine congrArg (V m c main_v1 : S8x4096x1024.Idx → F .f32) ?_
  funext a
  apply Fin.ext
  have hi := w1_index t
  match a with
  | ⟨0, _⟩ => show win0_1.index t 0 * 1 + 1 * 0 = e.val; rw [hi.1]; omega
  | ⟨1, _⟩ => show win0_1.index t 1 * 512 + 1 * j.val = f.val; rw [hi.2.1]; omega
  | ⟨2, _⟩ => show win0_1.index t 2 * 1024 + 1 * k.val = k.val; rw [hi.2.2]; omega

/-- Row `j` of step `t`'s second-layer block is hidden unit `512·(t%8) + j` of expert `t/16`. -/
theorem w2Block_apply (c : Dev nD) (t : Fin cfg0.N) (j : Fin 512) (k : Fin 1024) (e : Fin 8) (f : Fin 4096)
    (he : e.val = t.val / 16) (hf : f.val = t.val % 8 * 512 + j.val) :
    (iblk m c 2 t : Vec F S1x512x1024 .f32) (ix3 0 j k) = (V m c main_v2 : S8x4096x1024.Idx → F .f32) (ix3 e f k) := by
  unfold iblk
  rw [View.read_apply]
  show (V m c main_v2 : S8x4096x1024.Idx → F .f32) (((cfg0.win 2).blk t).view.emb (ix3 0 j k)) = _
  refine congrArg (V m c main_v2 : S8x4096x1024.Idx → F .f32) ?_
  funext a
  apply Fin.ext
  have hi := w2_index t
  match a with
  | ⟨0, _⟩ => show win0_2.index t 0 * 1 + 1 * 0 = e.val; rw [hi.1]; omega
  | ⟨1, _⟩ => show win0_2.index t 1 * 512 + 1 * j.val = f.val; rw [hi.2.1]; omega
  | ⟨2, _⟩ => show win0_2.index t 2 * 1024 + 1 * k.val = k.val; rw [hi.2.2]; omega

/-! ## The three arrays the kernel is launched on are the arguments, re-laid as [8, 4096, 1024] -/

theorem V_tok (c : Dev nD) : (V m c main_v0 : S8x4096x1024.Idx → F .f32)
    = shapeCast S8x4096x1024 (m ((c : Thread nD τ).loc main_arg0)) shapeCasts_S32768x1024_S8x4096x1024 := by
  show StableHlo.after hostOps0 (fun b => m (c, b)) (Proc.devRef .tc main_v0) = _
  after_results
  rfl

theorem V_w1 (c : Dev nD) : (V m c main_v1 : S8x4096x1024.Idx → F .f32)
    = shapeCast S8x4096x1024 (m ((c : Thread nD τ).loc main_arg1)) shapeCasts_S32768x1024_S8x4096x1024 := by
  show StableHlo.after hostOps0 (fun b => m (c, b)) (Proc.devRef .tc main_v1) = _
  after_results
  rfl

theorem V_w2 (c : Dev nD) : (V m c main_v2 : S8x4096x1024.Idx → F .f32)
    = shapeCast S8x4096x1024 (m ((c : Thread nD τ).loc main_arg2)) shapeCasts_S32768x1024_S8x4096x1024 := by
  show StableHlo.after hostOps0 (fun b => m (c, b)) (Proc.devRef .tc main_v2) = _
  after_results
  rfl

end Cert.KernelIdeal.Body

end
-- ==== Proof.Accum.lean ====
/-
  The running sum across the grid, in closed form.

  The grid's steps come in runs of eight (the eight hidden tiles of one token block of one expert).  The first step of a
  run resets the scratch block and adds its tile's term; each later step adds its own tile's term to what the step before
  left; the last step also copies the scratch block to the output block.  So after step `t` the scratch block holds, at
  row `p` and feature `h`, zero plus the terms of the steps `8·(t/8) … t` of its run — and at the last step of a run,
  the sum of all eight tiles' terms.
-/
import proofs.«157871_j40553081209075_2_alg».proof.Proof.Payload
import proofs.«157871_j40553081209075_2_alg».proof.Proof.Pieces
import proofs.«157871_j40553081209075_2_alg».proof.Proof.Blocks
import Idealize.ShloMosaic.Lib.Pipeline.Value

noncomputable section

namespace Cert.KernelIdeal.Body

open Cert.KernelIdeal Cert.KernelIdeal.Gen Idealize.ShloMosaic Idealize.ShloMosaic.TcCoe Idealize.SL.Sem
open Idealize.ShloMosaic.ValueIdx Cert.GroupedMlp

variable (m : (ℓ : Loc nD τ sig) → Buf (Elt Ideal) ℓ)

/-! ## The three cases, at a step of the grid -/

/-- The first step of a run leaves zero plus … (the reset's zero block stepped once). -/
theorem at_first (c : Dev nD) (t : Fin cfg0.N) (h0 : t.val % 8 = 0) :
    (outsAt0 m c t.val t.isLt).2 = k0_pay2 (F := Ideal) (iblk m c 0 t) (iblk m c 1 t) (iblk m c 2 t) (k0_pay1 (F := Ideal)) := by
  have h1 : ¬t.val % 8 = 7 := by omega
  rw [outsAt0_A m c t h0 h1]
  dsimp only
  exact scratch_A (F := Ideal) c (grid0.coords t) (ms0_0 t) (hs0_0 t) (ms0_1 t) (hs0_1 t) (ms0_2 t) (hs0_2 t) (ms0_3 t)
    (hs0_3 t) scM0_0 (Memref.isWhole_whole _) (iblk m c 0 t) (iblk m c 1 t) (iblk m c 2 t) ((hcond0_0 t).mpr h0)
    (fun h => h1 ((hcond0_1 t).mp h))

/-- A later step leaves what the step before left, stepped once. -/
theorem at_later (c : Dev nD) (t : Fin cfg0.N) (h0 : ¬t.val % 8 = 0) :
    (outsAt0 m c t.val t.isLt).2 = k0_pay2 (F := Ideal) (iblk m c 0 t) (iblk m c 1 t) (iblk m c 2 t)
      (outsAt0 m c (t.val - 1) (Nat.lt_of_le_of_lt (Nat.sub_le _ _) t.isLt)).2 := by
  by_cases h1 : t.val % 8 = 7
  · rw [outsAt0_C m c t h0 h1]
    dsimp only
    exact scratch_C (F := Ideal) c (grid0.coords t) (ms0_0 t) (hs0_0 t) (ms0_1 t) (hs0_1 t) (ms0_2 t) (hs0_2 t) (ms0_3 t)
      (hs0_3 t) scM0_0 (Memref.isWhole_whole _) (iblk m c 0 t) (iblk m c 1 t) (iblk m c 2 t)
      (fun h => h0 ((hcond0_0 t).mp h)) ((hcond0_1 t).mpr h1)
      (outsAt0 m c (t.val - 1) (Nat.lt_of_le_of_lt (Nat.sub_le _ _) t.isLt)).2
  · rw [outsAt0_B m c t h0 h1]
    dsimp only
    exact scratch_B (F := Ideal) c (grid0.coords t) (ms0_0 t) (hs0_0 t) (ms0_1 t) (hs0_1 t) (ms0_2 t) (hs0_2 t) (ms0_3 t)
      (hs0_3 t) scM0_0 (Memref.isWhole_whole _) (iblk m c 0 t) (iblk m c 1 t) (iblk m c 2 t)
      (fun h => h0 ((hcond0_0 t).mp h)) (fun h => h1 ((hcond0_1 t).mp h))
      (outsAt0 m c (t.val - 1) (Nat.lt_of_le_of_lt (Nat.sub_le _ _) t.isLt)).2

/-- The last step of a run copies what it leaves in the scratch block into the output block. -/
theorem at_last (c : Dev nD) (t : Fin cfg0.N) (h7 : t.val % 8 = 7) :
    (outsAt0 m c t.val t.isLt).1 = k0_pay3 (F := Ideal) (outsAt0 m c t.val t.isLt).2 := by
  have h0 : ¬t.val % 8 = 0 := by omega
  rw [outsAt0_C m c t h0 h7]
  dsimp only
  exact (out_C (F := Ideal) c (grid0.coords t) (ms0_0 t) (hs0_0 t) (ms0_1 t) (hs0_1 t) (ms0_2 t) (hs0_2 t) (ms0_3 t)
      (hs0_3 t) scM0_0 (Memref.isWhole_whole _) (iblk m c 0 t) (iblk m c 1 t) (iblk m c 2 t)
      (fun h => h0 ((hcond0_0 t).mp h)) ((hcond0_1 t).mpr h7)
      (outsAt0 m c (t.val - 1) (Nat.lt_of_le_of_lt (Nat.sub_le _ _) t.isLt)).2).trans
    (congrArg (k0_pay3 (F := Ideal))
      (scratch_C (F := Ideal) c (grid0.coords t) (ms0_0 t) (hs0_0 t) (ms0_1 t) (hs0_1 t) (ms0_2 t) (hs0_2 t) (ms0_3 t)
        (hs0_3 t) scM0_0 (Memref.isWhole_whole _) (iblk m c 0 t) (iblk m c 1 t) (iblk m c 2 t)
        (fun h => h0 ((hcond0_0 t).mp h)) ((hcond0_1 t).mpr h7)
        (outsAt0 m c (t.val - 1) (Nat.lt_of_le_of_lt (Nat.sub_le _ _) t.isLt)).2).symm)

/-! ## The run's fold -/

/-- What the scratch block holds after step `n`. -/
def scratchAt (c : Dev nD) (n : ℕ) (h : n < cfg0.N) : S2048x1024.Idx → EReal := (outsAt0 m c n h).2

/-- What the first step of a run leaves. -/
def resetAt (c : Dev nD) (n : ℕ) (h : n < cfg0.N) : S2048x1024.Idx → EReal :=
  k0_pay2 (F := Ideal) (iblk m c 0 ⟨n, h⟩) (iblk m c 1 ⟨n, h⟩) (iblk m c 2 ⟨n, h⟩) (k0_pay1 (F := Ideal))

/-- What a later step makes of what it finds. -/
def stepAt (c : Dev nD) (n : ℕ) (h : n < cfg0.N) (acc : S2048x1024.Idx → EReal) : S2048x1024.Idx → EReal :=
  k0_pay2 (F := Ideal) (iblk m c 0 ⟨n, h⟩) (iblk m c 1 ⟨n, h⟩) (iblk m c 2 ⟨n, h⟩) acc

/-- The term step `n` adds at (p, h): its tile's 512 rectified hidden units against the second-layer block (zero past
    the grid, where nothing is ever read). -/
def addend (c : Dev nD) (n : ℕ) : S2048x1024.Idx → EReal := fun i =>
  if h : n < cfg0.N then
    blockTile (iblk m c 0 ⟨n, h⟩ : Vec Ideal S1x2048x1024 .f32) (iblk m c 1 ⟨n, h⟩ : Vec Ideal S1x512x1024 .f32)
      (iblk m c 2 ⟨n, h⟩ : Vec Ideal S1x512x1024 .f32) (i 0) (i 1)
  else 0

theorem addend_apply (c : Dev nD) (n : ℕ) (h : n < cfg0.N) (p : Fin 2048) (q : Fin 1024) :
    addend m c n (ix2 p q)
      = blockTile (iblk m c 0 ⟨n, h⟩ : Vec Ideal S1x2048x1024 .f32) (iblk m c 1 ⟨n, h⟩ : Vec Ideal S1x512x1024 .f32)
          (iblk m c 2 ⟨n, h⟩ : Vec Ideal S1x512x1024 .f32) p q := by
  unfold addend
  rw [dif_pos h]

theorem scratch_reset (c : Dev nD) (n : ℕ) (h : n < cfg0.N) (h0 : n % 8 = 0) : scratchAt m c n h = resetAt m c n h :=
  at_first m c ⟨n, h⟩ h0

theorem scratch_step (c : Dev nD) (n : ℕ) (h : n + 1 < cfg0.N) (h0 : ¬(n + 1) % 8 = 0) :
    scratchAt m c (n + 1) h = stepAt m c (n + 1) h (scratchAt m c n (Nat.lt_of_succ_lt h)) :=
  at_later m c ⟨n + 1, h⟩ h0

theorem reset_eq (c : Dev nD) (b : ℕ) (h : b < cfg0.N) (i : S2048x1024.Idx) :
    resetAt m c b h i = (fun _ => (0 : EReal)) i + addend m c b i := by
  obtain ⟨p, q, rfl⟩ : ∃ (p : Fin 2048) (q : Fin 1024), i = ix2 p q := ⟨i 0, i 1, eq_ix2 i⟩
  unfold resetAt
  rw [step_apply, reset_apply, addend_apply m c b h]

theorem step_eq (c : Dev nD) (n : ℕ) (h : n < cfg0.N) (acc : S2048x1024.Idx → EReal) (i : S2048x1024.Idx) :
    stepAt m c n h acc i = acc i + addend m c n i := by
  obtain ⟨p, q, rfl⟩ : ∃ (p : Fin 2048) (q : Fin 1024), i = ix2 p q := ⟨i 0, i 1, eq_ix2 i⟩
  unfold stepAt
  rw [step_apply, addend_apply m c n h]

/-- After step `t` the scratch block holds zero plus the terms of the steps of `t`'s run up to `t`. -/
theorem scratch_closed (c : Dev nD) (t : ℕ) (ht : t < cfg0.N) (i : S2048x1024.Idx) :
    scratchAt m c t ht i = 0 + ∑ s ∈ Finset.range (t % 8 + 1), addend m c (8 * (t / 8) + s) i := by
  have h' : 8 * (t / 8) + t % 8 < cfg0.N := by rw [Nat.div_add_mod]; exact ht
  rw [Pipeline.eq_accAt_of_mod (scratchAt m c) 8 (resetAt m c) (stepAt m c) (scratch_reset m c) (scratch_step m c)
    (by decide) t ht h']
  exact Pipeline.accAt_add_apply (resetAt m c) (stepAt m c) (fun _ => (0 : EReal)) (addend m c) (8 * (t / 8)) 7
    (fun h i => reset_eq m c _ h i) (fun n h acc i _ _ => step_eq m c n h acc i) (t % 8)
    (by have := Nat.mod_lt t (by decide : 0 < 8); omega) h' i

/-- At the last step of a run the output block holds, under its leading unit axis, zero plus all eight tiles' terms. -/
theorem out_closed (c : Dev nD) (t : Fin cfg0.N) (h7 : t.val % 8 = 7) (z : Fin 1) (p : Fin 2048) (q : Fin 1024) :
    (outsAt0 m c t.val t.isLt).1 (ix3 z p q)
      = 0 + ∑ s ∈ Finset.range 8, addend m c (8 * (t.val / 8) + s) (ix2 p q) := by
  rw [at_last m c t h7, writeback_apply]
  have := scratch_closed m c t.val t.isLt (ix2 p q)
  rw [h7] at this
  exact this

end Cert.KernelIdeal.Body

end
-- ==== Proof.KernelValue.lean ====
/-
  The kernel's result array.

  Only the last step of each run of eight writes its output block back, and by then the block holds, at row `p` and
  feature `h`, all eight tiles' terms for token `2048·(t/8%2) + p` of expert `t/16` — by the law of the specification,
  that token's output.  The sixteen written blocks tile the [8, 4096, 1024] array (the block of step `16e + 8b + 7` is
  rows `2048b … 2048b + 2047` of expert `e`), so the array ends holding `result3` of the three arrays the kernel was
  launched on; the one host operation after the kernel re-lays it as [32768, 1024].
-/
import proofs.«157871_j40553081209075_2_alg».proof.Proof.Accum
import Idealize.ShloMosaic.Lib.Pipeline.Value
import Idealize.ShloMosaic.Lib.StableHlo.Run

noncomputable section

namespace Cert.KernelIdeal.Body

open Cert.KernelIdeal Cert.KernelIdeal.Gen Idealize.ShloMosaic Idealize.ShloMosaic.TcCoe Idealize.SL.Sem
open Idealize.ShloMosaic.Pipeline (Dat)
open Idealize.ShloMosaic.ValueIdx Cert.GroupedMlp

variable (m : (ℓ : Loc nD τ sig) → Buf (Elt Ideal) ℓ) (ρ : Dev nD → PrngReg)

/-- The array the kernel's output window ends holding: `result3` of the three arrays it was launched on. -/
def outArr (c : Dev nD) : S8x4096x1024.Idx → EReal :=
  result3 (V m c main_v0 : S8x4096x1024.Idx → EReal) (V m c main_v1 : S8x4096x1024.Idx → EReal)
    (V m c main_v2 : S8x4096x1024.Idx → EReal)

/-- Step `8q + s` adds tile `s`'s term of token `2048·(q%2) + p` of expert `q/2`. -/
theorem addend_eq_tileTerm (c : Dev nD) (q : ℕ) (hq : q < 16) (s : Fin 8) (p : Fin 2048) (h : Fin 1024) (e : Fin 8)
    (g : Fin 4096) (he : e.val = q / 2) (hg : g.val = q % 2 * 2048 + p.val) :
    addend m c (8 * q + s.val) (ix2 p h)
      = tileTerm (V m c main_v0 : S8x4096x1024.Idx → EReal) (V m c main_v1 : S8x4096x1024.Idx → EReal)
          (V m c main_v2 : S8x4096x1024.Idx → EReal) e g h s := by
  have hN : cfg0.N = 128 := N_0
  have hs : s.val < 8 := s.isLt
  have hn : 8 * q + s.val < cfg0.N := by omega
  rw [addend_apply m c _ hn]
  refine blockTile_eq_tileTerm _ _ _ _ _ _ e g s p h (fun k => ?_) (fun j k => ?_) (fun j => ?_)
  · exact tokBlock_apply m c ⟨8 * q + s.val, hn⟩ p k e g (by show e.val = (8 * q + s.val) / 16; omega)
      (by show g.val = (8 * q + s.val) / 8 % 2 * 2048 + p.val; omega)
  · exact w1Block_apply m c ⟨8 * q + s.val, hn⟩ j k e (tileRow s j) (by show e.val = (8 * q + s.val) / 16; omega)
      (by show s.val * 512 + j.val = (8 * q + s.val) % 8 * 512 + j.val; omega)
  · exact w2Block_apply m c ⟨8 * q + s.val, hn⟩ j h e (tileRow s j) (by show e.val = (8 * q + s.val) / 16; omega)
      (by show s.val * 512 + j.val = (8 * q + s.val) % 8 * 512 + j.val; omega)

/-- What a writing step's output block holds at an entry is `outArr` at the entry's place in the array. -/
theorem flushed_at (c : Dev nD) (t : Fin cfg0.N) (h7 : t.val % 8 = 7) (z : Fin 1) (p : Fin 2048) (q : Fin 1024) :
    (outsAt0 m c t.val t.isLt).1 (ix3 z p q) = outArr m c (((cfg0.win 3).blk t).view.emb (ix3 z p q)) := by
  have hN : cfg0.N = 128 := N_0
  have ht : t.val < 128 := lt_of_lt_of_eq t.isLt hN
  have hp : p.val < 2048 := p.isLt
  have hi := out_index t
  have hemb : ((cfg0.win 3).blk t).view.emb (ix3 z p q)
      = ix3 (⟨t.val / 16, by omega⟩ : Fin 8) (⟨t.val / 8 % 2 * 2048 + p.val, by omega⟩ : Fin 4096) q := by
    funext a
    apply Fin.ext
    match a with
    | ⟨0, _⟩ => show win0_3.index t 0 * 1 + 1 * z.val = t.val / 16; rw [hi.1]; have := z.isLt; omega
    | ⟨1, _⟩ => show win0_3.index t 1 * 2048 + 1 * p.val = t.val / 8 % 2 * 2048 + p.val; rw [hi.2.1]; omega
    | ⟨2, _⟩ => show win0_3.index t 2 * 1024 + 1 * q.val = q.val; rw [hi.2.2]; omega
  rw [hemb, out_closed m c t h7 z p q]
  unfold outArr
  rw [result3_apply, outAt_eq_sum_tiles, zero_add, Finset.sum_range]
  refine Finset.sum_congr rfl fun s _ => ?_
  exact addend_eq_tileTerm m c (t.val / 8) (by omega) s p q _ _ (by show t.val / 16 = t.val / 8 / 2; omega)
    (by show t.val / 8 % 2 * 2048 + p.val = t.val / 8 % 2 * 2048 + p.val; rfl)

/-- WHAT A WRITING STEP WRITES BACK is its block of `outArr`. -/
theorem flushed_eq (c : Dev nD) (t : Fin cfg0.N) (hf : (cfg0.win 3).flush t = true) :
    (dats m 0 c).flushed 3 t = ((cfg0.win 3).blk t).view.read (Elt Ideal) (outArr m c) := by
  have h7 : t.val % 8 = 7 := (flush0_3 t).mp hf
  show (cfg0.win 3).cut (grid0.coords t) ((dats m 0 c).after 3 t) = _
  rw [after0_3]
  funext y
  obtain ⟨z, p, q, rfl⟩ : ∃ (z : Fin 1) (p : Fin 2048) (q : Fin 1024), y = ix3 z p q := ⟨y 0, y 1, y 2, eq_ix3 y⟩
  exact flushed_at m c t h7 z p q

/-- An index of the array is in step `t`'s block iff each coordinate is in the block's range on its axis. -/
theorem mem_blk (t : Fin cfg0.N) (i : S8x4096x1024.Idx) :
    i ∈ ((cfg0.win 3).blk t).view.set ↔ ∀ a : Fin 3, win0_3.index t a * S1x2048x1024.size a ≤ (i a).val
      ∧ (i a).val < win0_3.index t a * S1x2048x1024.size a + S1x2048x1024.size a := by
  show i ∈ ((View.whole main_v3).slice (win0_3.rect t)).set ↔ _
  rw [View.set_slice_whole, Rect.mem_set_unit]
  exact Iff.rfl

/-- Every entry of the array lies in the block some run's last step writes back. -/
theorem cover (i : S8x4096x1024.Idx) :
    ∃ t : Fin cfg0.N, (cfg0.win 3).flush t = true ∧ i ∈ ((cfg0.win 3).blk t).view.set := by
  have hN : cfg0.N = 128 := N_0
  have h0 : (i 0).val < 8 := (i 0).isLt
  have h1 : (i 1).val < 4096 := (i 1).isLt
  have h2 : (i 2).val < 1024 := (i 2).isLt
  have hn : 16 * (i 0).val + 8 * ((i 1).val / 2048) + 7 < cfg0.N := by omega
  refine ⟨⟨16 * (i 0).val + 8 * ((i 1).val / 2048) + 7, hn⟩, (flush0_3 _).mpr (by
    show (16 * (i 0).val + 8 * ((i 1).val / 2048) + 7) % 8 = 7; omega), ?_⟩
  rw [mem_blk]
  obtain ⟨e0, e1, e2⟩ := out_index ⟨16 * (i 0).val + 8 * ((i 1).val / 2048) + 7, hn⟩
  intro a
  match a with
  | ⟨0, _⟩ =>
    show win0_3.index ⟨16 * (i 0).val + 8 * ((i 1).val / 2048) + 7, hn⟩ 0 * 1 ≤ (i 0).val
      ∧ (i 0).val < win0_3.index ⟨16 * (i 0).val + 8 * ((i 1).val / 2048) + 7, hn⟩ 0 * 1 + 1
    rw [e0]
    show (16 * (i 0).val + 8 * ((i 1).val / 2048) + 7) / 16 * 1 ≤ (i 0).val
      ∧ (i 0).val < (16 * (i 0).val + 8 * ((i 1).val / 2048) + 7) / 16 * 1 + 1
    omega
  | ⟨1, _⟩ =>
    show win0_3.index ⟨16 * (i 0).val + 8 * ((i 1).val / 2048) + 7, hn⟩ 1 * 2048 ≤ (i 1).val
      ∧ (i 1).val < win0_3.index ⟨16 * (i 0).val + 8 * ((i 1).val / 2048) + 7, hn⟩ 1 * 2048 + 2048
    rw [e1]
    show (16 * (i 0).val + 8 * ((i 1).val / 2048) + 7) / 8 % 2 * 2048 ≤ (i 1).val
      ∧ (i 1).val < (16 * (i 0).val + 8 * ((i 1).val / 2048) + 7) / 8 % 2 * 2048 + 2048
    omega
  | ⟨2, _⟩ =>
    show win0_3.index ⟨16 * (i 0).val + 8 * ((i 1).val / 2048) + 7, hn⟩ 2 * 1024 ≤ (i 2).val
      ∧ (i 2).val < win0_3.index ⟨16 * (i 0).val + 8 * ((i 1).val / 2048) + 7, hn⟩ 2 * 1024 + 1024
    rw [e2]
    omega

/-- THE ARRAY after the kernel: `outArr`. -/
theorem final (c : Dev nD) : (dats m 0 c).arrAt 3 cfg0.N = outArr m c :=
  (dats m 0 c).arrAt_eq_of_cover 3 (outArr m c) (flushed_eq m c) cover

/-- The program's result: the kernel's array re-laid as [32768, 1024], as a function of the three arguments. -/
def resultArr (c : Dev nD) : S32768x1024.Idx → EReal :=
  shapeCast S32768x1024
    (result3 (shapeCast S8x4096x1024 (m ((c : Thread nD τ).loc main_arg0)) shapeCasts_S32768x1024_S8x4096x1024)
      (shapeCast S8x4096x1024 (m ((c : Thread nD τ).loc main_arg1)) shapeCasts_S32768x1024_S8x4096x1024)
      (shapeCast S8x4096x1024 (m ((c : Thread nD τ).loc main_arg2)) shapeCasts_S32768x1024_S8x4096x1024))
    shapeCasts_S8x4096x1024_S32768x1024

/-- The host operation after the kernel re-lays the kernel's array. -/
theorem tail_eq (c : Dev nD) :
    Pipeline.afterTail₀ cfgs (dats m) 0 (V0 m) [hostOps1] c main_v4 = resultArr m c := by
  unfold Pipeline.afterTail₀
  show StableHlo.after hostOps1 _ (Proc.devRef .tc main_v4) = _
  after_results
  have hw : Pipeline.withArrays (cfgs 0).spec c (V0 m c) (fun w => (dats m 0 c).arrAt w (cfgs 0).N)
      (Proc.devRef .tc main_v3) = outArr m c :=
    (Pipeline.withArrays_arr spec0 launch0.win.arr_inj c _ _ 3).trans (final m c)
  rw [hw]
  unfold outArr resultArr
  rw [V_tok, V_w1, V_w2]
  rfl

/-- The run, read: the result at `resultArr`, the arguments unchanged. -/
theorem run : θ_run defs (onTc (τ := τ) (main (F := Ideal))) ⟨m, fun _ => 0, ρ⟩ fun r => ∀ c : Dev nD,
      r.2.mem ((c.tc : Thread nD τ).loc main_v4) = resultArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Body

end
-- ==== Proof.RefSide.lean ====
/-
  The reference computes the same function: it re-lays the three arguments as [8, 4096, 1024], takes the batched product
  of the tokens with the first-layer weights over the feature axis, rectifies against a zero block, takes the batched
  product with the second-layer weights over all 4096 hidden units at once, and re-lays the result as [32768, 1024].
  Read at an index that is `outAt` of the re-laid arguments.
-/
import proofs.«157871_j40553081209075_2_alg».proof.Proof.Gen.ReferenceIdeal.Read
import proofs.«157871_j40553081209075_2_alg».proof.Proof.Spec
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.GroupedMlp

/-- The index pairs the two batched products read, at explicit coordinates. -/
theorem lidx_v5 (e : Fin 8) (g : Fin 4096) (h : Fin 1024) (f : Fin 4096) : lidx_main_v5 (ix3 e g h) f = ix3 e g f :=
  funext fun a => Fin.ext (by
    match a with
    | ⟨0, _⟩ => rfl
    | ⟨1, _⟩ => rfl
    | ⟨2, _⟩ => rfl)
theorem ridx_v5 (e : Fin 8) (g : Fin 4096) (h : Fin 1024) (f : Fin 4096) : ridx_main_v5 (ix3 e g h) f = ix3 e f h :=
  funext fun a => Fin.ext (by
    match a with
    | ⟨0, _⟩ => rfl
    | ⟨1, _⟩ => rfl
    | ⟨2, _⟩ => rfl)
theorem lidx_v3 (e : Fin 8) (g f : Fin 4096) (k : Fin 1024) : lidx_main_v3 (ix3 e g f) k = ix3 e g k :=
  funext fun a => Fin.ext (by
    match a with
    | ⟨0, _⟩ => rfl
    | ⟨1, _⟩ => rfl
    | ⟨2, _⟩ => rfl)
theorem ridx_v3 (e : Fin 8) (g f : Fin 4096) (k : Fin 1024) : ridx_main_v3 (ix3 e g f) k = ix3 e f k :=
  funext fun a => Fin.ext (by
    match a with
    | ⟨0, _⟩ => rfl
    | ⟨1, _⟩ => rfl
    | ⟨2, _⟩ => rfl)

/-- The stage before the final re-laying is `result3` of the three re-laid arguments. -/
theorem stage5_eq (x0 x1 x2 : (⟨S32768x1024, .f32⟩ : BufTy).Contents (Elt Ideal)) :
    val_main_v5 (F := Ideal) x0 x1 x2
      = result3 (val_main_v2 (F := Ideal) x0) (val_main_v0 (F := Ideal) x1) (val_main_v1 (F := Ideal) x2) := by
  funext i
  obtain ⟨e, g, h, rfl⟩ : ∃ (e : Fin 8) (g : Fin 4096) (h : Fin 1024), i = ix3 e g h := ⟨i 0, i 1, i 2, eq_ix3 i⟩
  rw [val_main_v5_apply, result3_apply]
  unfold outAt Cert.GroupedMlp.hidden
  refine Finset.sum_congr rfl fun f _ => ?_
  rw [lidx_v5, ridx_v5, val_main_v4_apply, val_main_v3_apply, val_main_call0_v0_apply, val_main_call0_cst_apply]
  refine congrArg (· * val_main_v1 (F := Ideal) x2 (ix3 e f h)) ?_
  refine congrArg₂ max (Finset.sum_congr rfl fun k _ => ?_) Ideal.ofBits_zero_f32
  rw [lidx_v3, ridx_v3]

/-- The reference's result, as one function of its three arguments. -/
theorem result_eq (x0 x1 x2 : (⟨S32768x1024, .f32⟩ : BufTy).Contents (Elt Ideal)) :
    val_main_v6 (F := Ideal) x0 x1 x2
      = shapeCast S32768x1024
          (result3 (shapeCast S8x4096x1024 x0 shapeCasts_S32768x1024_S8x4096x1024)
            (shapeCast S8x4096x1024 x1 shapeCasts_S32768x1024_S8x4096x1024)
            (shapeCast S8x4096x1024 x2 shapeCasts_S32768x1024_S8x4096x1024))
          shapeCasts_S8x4096x1024_S32768x1024 := by
  unfold val_main_v6
  rw [stage5_eq]
  rfl

end Cert.ReferenceIdeal.RefValue

end
-- ==== Proof.lean ====
/-
  The certificate of a grouped two-layer MLP with a rectifier, eight experts with equal token counts.

  Kernel side: a pipelined kernel over a grid of 8 experts × 2 token blocks × 8 hidden tiles keeps a running sum in a
  scratch block (reset at tile 0, one tile's term added per step, copied to the output block at tile 7), between a host
  re-laying of the three arguments as [8, 4096, 1024] and a host re-laying of the result as [32768, 1024].  Reference
  side: two batched products around a rectifier over the same re-laid arrays.  On the extended reals both end at one
  function of the three arguments (`Cert.GroupedMlp.result3` between the re-layings); the only difference, the order in
  which the 4096 hidden units are summed, is no difference there, and no finiteness of the inputs is used.  The
  word-level kernel and its idealization are one text, so `preserves` asks nothing.
-/
import proofs.«157871_j40553081209075_2_alg».proof.Defs
import proofs.«157871_j40553081209075_2_alg».proof.Proof.Gen.Kernel
import proofs.«157871_j40553081209075_2_alg».proof.Proof.Gen.Kernel.Skeleton
import proofs.«157871_j40553081209075_2_alg».proof.Proof.Gen.Kernel.Launch
import proofs.«157871_j40553081209075_2_alg».proof.Proof.Gen.Kernel.Points
import proofs.«157871_j40553081209075_2_alg».proof.Proof.Gen.Kernel.Frame
import proofs.«157871_j40553081209075_2_alg».proof.Proof.Gen.KernelIdeal
import proofs.«157871_j40553081209075_2_alg».proof.Proof.Gen.KernelIdeal.Skeleton
import proofs.«157871_j40553081209075_2_alg».proof.Proof.Gen.KernelIdeal.Launch
import proofs.«157871_j40553081209075_2_alg».proof.Proof.Gen.KernelIdeal.Points
import proofs.«157871_j40553081209075_2_alg».proof.Proof.Gen.KernelIdeal.Frame
import proofs.«157871_j40553081209075_2_alg».proof.Proof.Gen.ReferenceIdeal
import proofs.«157871_j40553081209075_2_alg».proof.Proof.Gen.ReferenceIdeal.Run
import proofs.«157871_j40553081209075_2_alg».proof.Proof.Gen.ReferenceIdeal.Read
import proofs.«157871_j40553081209075_2_alg».proof.Proof.Gen.Pre_finite_inputs
import proofs.«157871_j40553081209075_2_alg».proof.Proof.KernelValue
import proofs.«157871_j40553081209075_2_alg».proof.Proof.RefSide
import Idealize.ShloMosaic.Adequacy
import Idealize.ShloMosaic.Init

noncomputable section

namespace Cert.Proof

open Idealize.ShloMosaic Idealize.SL.Sem Cert.Kernel

/-- Both idealized programs end with their result at the same function of arguments that agree. -/
theorem algebraic : Cert.algebraic_KernelIdeal_ReferenceIdeal := by
  intro m ρ m' ρ' _ hagree
  refine ⟨fun c => Cert.KernelIdeal.Body.resultArr m c, Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.RefValue.result_eq _ _ _).trans ?_
  rw [(hagree c).1, (hagree c).2.1, (hagree c).2.2.1]
  rfl

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2)
    (Cert.ReferenceIdeal.Value.run (F := Ideal) m ρ),
  trivial,
  algebraic⟩

end Cert.Proof

end
